-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x784 : Shape := ⟨2, ![131072, 784]⟩
abbrev S784 : Shape := ⟨1, ![784]⟩
abbrev S_ : Shape := ⟨0, ![]⟩

class Facts : Prop where
  bcast_S_S131072x784 : S_.BroadcastsInDim S131072x784 (![] : Fin 0 → Fin S131072x784.rank)
  reducesTo_S131072x784_S_d0_1 : S131072x784.ReducesTo [0, 1] S_
  h_S_ : 0 < S_.numel
  bcast_S_S784 : S_.BroadcastsInDim S784 (![] : Fin 0 → Fin S784.rank)
  reducesTo_S784_S_d0 : S784.ReducesTo [0] S_

variable [Facts]

def fn {F : FTy → Type} [FloatOps F] (main_arg0 : FVec F S131072x784 .f32) (main_arg1 : FVec F S784 .f32) (main_arg2 : FVec F S784 .f32) : IVec S_ 1 :=
  let main_v0 : FVec F S131072x784 .f32 := Host.absf main_arg0
  let main_cst : FVec F S_ .f32 := constant S_ .f32 0x7F800000#32
  let main_v1 : FVec F S131072x784 .f32 := broadcastInDim S131072x784 ![] bcast_S_S131072x784 main_cst
  let main_v2 : IVec S131072x784 1 := cmpf .olt main_v0 main_v1
  let main_c : IVec S_ 1 := constantI S_ 1 1#1
  let main_v3 : IVec S_ 1 := (fun x v => Host.reduce IntOp.andi x v reducesTo_S131072x784_S_d0_1 h_S_) main_v2 main_c
  let main_v4 : FVec F S784 .f32 := Host.absf main_arg1
  let main_cst_0 : FVec F S_ .f32 := constant S_ .f32 0x7F800000#32
  let main_v5 : FVec F S784 .f32 := broadcastInDim S784 ![] bcast_S_S784 main_cst_0
  let main_v6 : IVec S784 1 := cmpf .olt main_v4 main_v5
  let main_c_1 : IVec S_ 1 := constantI S_ 1 1#1
  let main_v7 : IVec S_ 1 := (fun x v => Host.reduce IntOp.andi x v reducesTo_S784_S_d0 h_S_) main_v6 main_c_1
  let main_v8 : IVec S_ 1 := andi main_v3 main_v7
  let main_v9 : FVec F S784 .f32 := Host.absf main_arg2
  let main_cst_2 : FVec F S_ .f32 := constant S_ .f32 0x7F800000#32
  let main_v10 : FVec F S784 .f32 := broadcastInDim S784 ![] bcast_S_S784 main_cst_2
  let main_v11 : IVec S784 1 := cmpf .olt main_v9 main_v10
  let main_c_3 : IVec S_ 1 := constantI S_ 1 1#1
  let main_v12 : IVec S_ 1 := (fun x v => Host.reduce IntOp.andi x v reducesTo_S784_S_d0 h_S_) main_v11 main_c_3
  let main_v13 : IVec S_ 1 := andi main_v8 main_v12
  main_v13
-- ==== Kernel.lean ====
abbrev S131072x784 : Shape := ⟨2, ![131072, 784]⟩
abbrev S784 : Shape := ⟨1, ![784]⟩
abbrev S1x784 : Shape := ⟨2, ![1, 784]⟩
abbrev S4096x784 : Shape := ⟨2, ![4096, 784]⟩

abbrev nBuf : Space → Nat
  | .hbm => 6
  | .vmem => 6
  | .smem => 0
  | _ => 0

abbrev bufTy : (tb : Table) → Fin (tcTables nBuf tb) → BufTy
  | .hbm, ⟨0, _⟩ => ⟨S131072x784, .f32⟩
  | .hbm, ⟨1, _⟩ => ⟨S784, .f32⟩
  | .hbm, ⟨2, _⟩ => ⟨S784, .f32⟩
  | .hbm, ⟨3, _⟩ => ⟨S1x784, .f32⟩
  | .hbm, ⟨4, _⟩ => ⟨S1x784, .f32⟩
  | .hbm, ⟨5, _⟩ => ⟨S131072x784, .f32⟩
  | .local _ .vmem, ⟨0, _⟩ => ⟨S4096x784, .f32⟩
  | .local _ .vmem, ⟨1, _⟩ => ⟨S4096x784, .f32⟩
  | .local _ .vmem, ⟨2, _⟩ => ⟨S1x784, .f32⟩
  | .local _ .vmem, ⟨3, _⟩ => ⟨S1x784, .f32⟩
  | .local _ .vmem, ⟨4, _⟩ => ⟨S4096x784, .f32⟩
  | .local _ .vmem, ⟨5, _⟩ => ⟨S4096x784, .f32⟩
  | _, _ => ⟨S131072x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x784 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x784 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S784_S1x784 : S784.ShapeCasts S1x784
  inb_S1x784_S1x784_0_0 : ∀ a, (![0, 0] : Fin 2 → Nat) a + S1x784.size a ≤ S1x784.size a
  h_S1x784 : 0 < S1x784.numel
  shapeCasts_S1x784_S1x784 : S1x784.ShapeCasts S1x784
  inb_S4096x784_S4096x784_0_0 : ∀ a, (![0, 0] : Fin 2 → Nat) a + S4096x784.size a ≤ S4096x784.size a
  h_S4096x784 : 0 < S4096x784.numel
  broadcasts_S1x784_S4096x784 : S1x784.Broadcasts S4096x784
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x784.size a ≤ S131072x784.size a
  hwx0_0 : ∀ i : grid0.Coords, EltTy.bits .f32 = 32 ∨ (Rect.block (s := S131072x784) S4096x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x784.size a ≤ S1x784.size a
  hwx0_1 : ∀ i : grid0.Coords, EltTy.bits .f32 = 32 ∨ (Rect.block (s := S1x784) S1x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x784.size a ≤ S1x784.size a
  hwx0_2 : ∀ i : grid0.Coords, EltTy.bits .f32 = 32 ∨ (Rect.block (s := S1x784) S1x784.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x784.size a ≤ S131072x784.size a
  hwx0_3 : ∀ i : grid0.Coords, EltTy.bits .f32 = 32 ∨ (Rect.block (s := S131072x784) S4096x784.size (cc0_transform_3 i) (hinb0_3 i)).WholeWords (EltTy.packing .f32)

variable [Facts₀]

abbrev win0_0 : Pipeline.Window sig grid0 :=
  Pipeline.Window.ofSpec (Memref.whole main_arg0) S4096x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x784.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x784.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x784 : Shape := ⟨2, ![131072, 784]⟩
abbrev S784 : Shape := ⟨1, ![784]⟩
abbrev S_ : Shape := ⟨0, ![]⟩
abbrev S1x784 : Shape := ⟨2, ![1, 784]⟩

abbrev nBuf : Space → Nat
  | .hbm => 15
  | .vmem => 0
  | .smem => 0
  | _ => 0

abbrev bufTy : (tb : Table) → Fin (tcTables nBuf tb) → BufTy
  | .hbm, ⟨0, _⟩ => ⟨S131072x784, .f32⟩
  | .hbm, ⟨1, _⟩ => ⟨S784, .f32⟩
  | .hbm, ⟨2, _⟩ => ⟨S784, .f32⟩
  | .hbm, ⟨3, _⟩ => ⟨S_, .f32⟩
  | .hbm, ⟨4, _⟩ => ⟨S784, .f32⟩
  | .hbm, ⟨5, _⟩ => ⟨S784, .i1⟩
  | .hbm, ⟨6, _⟩ => ⟨S_, .f32⟩
  | .hbm, ⟨7, _⟩ => ⟨S784, .f32⟩
  | .hbm, ⟨8, _⟩ => ⟨S784, .f32⟩
  | .hbm, ⟨9, _⟩ => ⟨S_, .f32⟩
  | .hbm, ⟨10, _⟩ => ⟨S784, .f32⟩
  | .hbm, ⟨11, _⟩ => ⟨S784, .f32⟩
  | .hbm, ⟨12, _⟩ => ⟨S1x784, .f32⟩
  | .hbm, ⟨13, _⟩ => ⟨S131072x784, .f32⟩
  | .hbm, ⟨14, _⟩ => ⟨S131072x784, .f32⟩
  | _, _ => ⟨S131072x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S_S784 : S_.BroadcastsInDim S784 (![] : Fin 0 → Fin S784.rank)
  bcast_S784_S1x784_1 : S784.BroadcastsInDim S1x784 (![1] : Fin 1 → Fin S1x784.rank)
  bcast_S1x784_S131072x784_0_1 : S1x784.BroadcastsInDim S131072x784 (![0, 1] : Fin 2 → Fin S131072x784.rank)

variable [Facts₀]

class Facts : Prop extends Facts₀ where

variable [Facts]
-- ==== Proof.NoisyRows.lean ====
/-
  The function both programs compute, stated once with no program in sight.

  A column's noise is half of `g` where `u` is at most the threshold and zero elsewhere; the three numbers are kept as the
  binary words both programs spell (threshold `0x3E4CCCCD`, one half `0x3F000000`, zero), so no word is ever evaluated.
  The result adds that one noise vector of 784 columns to every one of the 131072 rows of `x`: entry `(r, c)` of the
  result depends on `x (r, c)`, `u c` and `g c` only. Nothing here depends on the float instance.
-/
import Idealize.ShloMosaic.PureOps.Vector
import Idealize.ShloMosaic.Lib.ValueIdx

noncomputable section

namespace Cert.NoisyRows

open Idealize.ShloMosaic Idealize.ShloMosaic.ValueIdx

variable {F : FTy → Type} [FloatOps F]

/-- One column's noise: `0.5 · g` where `u ≤ 0.2` (as the words the programs print), zero elsewhere. -/
def columnNoise (u g : F .f32) : F .f32 :=
  Scalar.select (FloatOps.cmpf .ole u (Scalar.ofBits .f32 0x3E4CCCCD#32))
    (FloatOps.mulf (Scalar.ofBits .f32 0x3F000000#32) g) (Scalar.ofBits .f32 0x00000000#32)

/-- Every row of `x` plus the same noise vector: entry `i = (r, c)` is `x i + columnNoise (u c) (g c)`. -/
def noisy (x : (⟨2, ![131072, 784]⟩ : Shape).Idx → F .f32) (u g : (⟨1, ![784]⟩ : Shape).Idx → F .f32) :
    (⟨2, ![131072, 784]⟩ : Shape).Idx → F .f32 :=
  fun i => FloatOps.addf (x i)
    (columnNoise (u (ix1 (n := 784) ⟨(i 1).val, idx2_lt1 i⟩)) (g (ix1 (n := 784) ⟨(i 1).val, idx2_lt1 i⟩)))

end Cert.NoisyRows

end
-- ==== Proof.RefNoisy.lean ====
/-
  The reference computes the specification.

  Read one operation at a time, the reference's result at entry `i = (r, c)` is `x i` plus the value of a vector of 784
  columns at `c`: the two broadcasts (784 columns to one row of 784, then that row to all 131072 rows) only forget the row,
  so the composed index they read at is the column of `i`. At that column the vector is the selection between half of `g`
  and zero on the comparison of `u` with the threshold, which is the specification's noise of that column. Nothing is
  regrouped, so the equation holds at every float instance.
-/
import proofs.«151766_j70102456206131_2_alg».proof.Proof.Gen.ReferenceIdeal.Read
import proofs.«151766_j70102456206131_2_alg».proof.Proof.NoisyRows

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- Through both broadcasts an entry of the result reads the noise vector at its own column. -/
theorem column_of (i : S131072x784.Idx) :
    idx_main_v5 (idx_main_v6 i) = ix1 (n := 784) ⟨(i 1).val, idx2_lt1 i⟩ :=
  funext fun a => match a with | ⟨0, _⟩ => rfl

/-- The reference's result is every row of `x` plus the one noise vector. -/
theorem reference_noisy (x : (⟨S131072x784, .f32⟩ : BufTy).Contents (Elt F)) (u g : (⟨S784, .f32⟩ : BufTy).Contents (Elt F)) :
    val_main_v7 (F := F) x u g = Cert.NoisyRows.noisy x u g := by
  funext i
  rw [val_main_v7_apply, val_main_v6_apply, val_main_v5_apply, val_main_v4_apply, val_main_v1_apply, val_main_v3_apply,
    val_main_call0_v0_apply, val_main_v0_apply, val_main_v2_apply, val_main_cst_apply, val_main_cst_0_apply,
    val_main_cst_1_apply, column_of]
  rfl

end Cert.ReferenceIdeal.RefValue

end
-- ==== Proof.KernelBlock.lean ====
/-
  What one grid point leaves in its output block.

  The body loads its three blocks whole — 4096 rows of `x`, and the one-row blocks of `u` and `g` — forms the noise on the
  one row of 784 columns, stretches that row over the 4096 rows, adds, and stores the sum whole. So entry `y = (r, c)` of
  the block it leaves is `x`'s block at `y` plus the specification's noise of the one-row blocks' entries `(0, c)`: the row
  of `y` is forgotten by the stretch and only its column reaches `u` and `g`. Stated over arbitrary blocks, at every float
  instance.
-/
import proofs.«151766_j70102456206131_2_alg».proof.Proof.Gen.KernelIdeal.Value
import proofs.«151766_j70102456206131_2_alg».proof.Proof.NoisyRows

noncomputable section

namespace Cert.KernelIdeal.BlockValue

open Cert.KernelIdeal Cert.KernelIdeal.Gen Cert.KernelIdeal.Value Idealize.ShloMosaic Idealize.ShloMosaic.TcCoe

variable {F : FTy → Type} [FloatOps F]

/-- The offset of a whole-block access is zero on both axes. -/
theorem origin : (![0, 0] : Fin 2 → Nat) = fun _ => 0 := funext fun a => by fin_cases a <;> rfl

/-- Entry `(0, c)` of a one-row block, for the column `c` of an entry `y = (r, c)` of the output block. -/
abbrev rowEntry (y : S4096x784.Idx) : S1x784.Idx := fun a => match a with
  | ⟨0, _⟩ => ⟨0, Nat.one_pos⟩
  | ⟨1, _⟩ => ⟨(y 1).val, (y 1).isLt⟩

/-- The block a point leaves: `x`'s block plus the noise of the one-row blocks at the entry's column. -/
theorem block_noisy (X : Vec F S4096x784 .f32) (U G : Vec F S1x784 .f32) (y : S4096x784.Idx) :
    out0_3 X U G y = FloatOps.addf (X y) (Cert.NoisyRows.columnNoise (U (rowEntry y)) (G (rowEntry y))) := by
  unfold out0_3
  simp only [View.ld_unit_zero (S := S4096x784) origin, View.ld_unit_zero (S := S1x784) origin]
  rw [canon3_eq]
  have e0 : ix3_0 y = y := funext fun a => match a with | ⟨0, _⟩ => rfl | ⟨1, _⟩ => rfl
  have e1 : ix3_1 y = rowEntry y := funext fun a => match a with | ⟨0, _⟩ => rfl | ⟨1, _⟩ => rfl
  have e2 : ix3_2 y = rowEntry y := funext fun a => match a with | ⟨0, _⟩ => rfl | ⟨1, _⟩ => rfl
  show FloatOps.addf (X (ix3_0 y)) (Scalar.select (FloatOps.cmpf .ole (U (ix3_1 y)) (Scalar.ofBits .f32 0x3E4CCCCD#32))
    (FloatOps.mulf (Scalar.ofBits .f32 0x3F000000#32) (G (ix3_2 y))) (Scalar.ofBits .f32 0x00000000#32)) = _
  rw [e0, e1, e2]
  rfl

end Cert.KernelIdeal.BlockValue

end
-- ==== Proof.KernelWhole.lean ====
/-
  From blocks to the whole array.

  The grid has 32 points; point `t` owns rows `4096·t … 4096·t + 4095` of the result, all 784 columns. At every point the
  block of `x` staged is the block of the same rows, and the blocks of `u` and `g` staged are the whole one-row arrays
  `[1, 784]` that the host made from the vectors of 784 columns before the call — a re-shape, so entry `(0, c)` of the row
  is entry `c` of the vector. Hence what point `t` writes back is block `t` of ONE function of the three arguments — the
  specification — and, the 32 blocks covering every row, the result array ends as that function. The row that covers
  index `(r, c)` belongs to point `r / 4096`.
-/
import proofs.«151766_j70102456206131_2_alg».proof.Proof.KernelBlock
import Idealize.ShloMosaic.Lib.Pipeline.Value
import Idealize.ShloMosaic.Lib.StableHlo.Run

noncomputable section

namespace Cert.KernelIdeal.WholeValue

open Cert.KernelIdeal Cert.KernelIdeal.Gen Cert.KernelIdeal.Value Cert.KernelIdeal.BlockValue
open Idealize.ShloMosaic Idealize.ShloMosaic.TcCoe Idealize.SL.Sem Idealize.ShloMosaic.StableHlo Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The one-row arrays the host makes before the call -/

/-- Equal columns give equal entries of a vector of 784 columns. -/
theorem column_congr {a b : Nat} (ha : a < 784) (hb : b < 784) (h : a = b) :
    ix1 (n := 784) ⟨a, ha⟩ = ix1 (n := 784) ⟨b, hb⟩ := by subst h; rfl

/-- A vector of 784 columns re-shaped to one row of 784: entry `(0, c)` of the row is entry `c` of the vector. -/
theorem row_of_vector (x : S784.Idx → Elt F .f32) (k : S1x784.Idx) :
    shapeCast S1x784 x shapeCasts_S784_S1x784 k = x (ix1 (n := 784) ⟨(k 1).val, (k 1).isLt⟩) := by
  have hk0 : (k 0).val < 1 := (k 0).isLt
  refine shapeCast_apply x shapeCasts_S784_S1x784 k (ix1 (n := 784) ⟨(k 1).val, (k 1).isLt⟩) ?_
  rw [Shape.rowMajor_val_one, Shape.rowMajor_val_two]
  show (k 1).val = (k 0).val * 784 + (k 1).val
  omega

/-- The array window 1 stages, as the region finds it: `u` as one row. -/
theorem entry_u (c : Dev nD) (k : S1x784.Idx) :
    V m c main_v0 k = m ((c : Thread nD τ).loc main_arg1) (ix1 (n := 784) ⟨(k 1).val, (k 1).isLt⟩) := by
  have e : (V m c main_v0 : S1x784.Idx → Elt F .f32)
      = shapeCast S1x784 (m ((c : Thread nD τ).loc main_arg1)) shapeCasts_S784_S1x784 := by
    dsimp only [Gen.V, Gen.hostOps0]; after_results; rfl
  exact (congrFun e k).trans (row_of_vector _ k)

/-- The array window 2 stages, as the region finds it: `g` as one row. -/
theorem entry_g (c : Dev nD) (k : S1x784.Idx) :
    V m c main_v1 k = m ((c : Thread nD τ).loc main_arg2) (ix1 (n := 784) ⟨(k 1).val, (k 1).isLt⟩) := by
  have e : (V m c main_v1 : S1x784.Idx → Elt F .f32)
      = shapeCast S1x784 (m ((c : Thread nD τ).loc main_arg2)) shapeCasts_S784_S1x784 := by
    dsimp only [Gen.V, Gen.hostOps0]; after_results; rfl
  exact (congrFun e k).trans (row_of_vector _ k)

/-! ## Which block each window stages at a point -/

/-- Over the 32 points: `x`'s block moves with the output's block; the one-row windows and the output's column block
    stay at zero. -/
theorem blocks_at : ∀ t : Fin cfg0.N, win0_0.index t (0 : Fin 2) = win0_3.index t (0 : Fin 2)
    ∧ win0_0.index t (1 : Fin 2) = win0_3.index t (1 : Fin 2)
    ∧ win0_1.index t (1 : Fin 2) = 0
    ∧ win0_2.index t (1 : Fin 2) = 0
    ∧ win0_3.index t (1 : Fin 2) = 0 :=
  (by decide +kernel : ∀ t : Fin grid0.N, _)

/-- Every block of 4096 rows is some point's. -/
theorem point_of_rows : ∀ q : Fin 32, ∃ t : Fin cfg0.N, win0_3.index t = ![q.val, 0] :=
  (by decide +kernel : ∀ q : Fin 32, ∃ t : Fin grid0.N, win0_3.index t = ![q.val, 0])

/-! ## What a point writes back is its block of the specification -/

theorem flushed_noisy (c : Dev nD) (t : Fin cfg0.N) :
    (dats m 0 c).flushed 3 t = ((cfg0.win 3).blk t).view.read (Elt F)
      (Cert.NoisyRows.noisy (m ((c : Thread nD τ).loc main_arg0)) (m ((c : Thread nD τ).loc main_arg1))
        (m ((c : Thread nD τ).loc main_arg2))) := by
  rw [flushed3]
  obtain ⟨e00, e01, e11, e21, e31⟩ := blocks_at t
  funext j
  have hj0 : (j 0).val < 4096 := (j 0).isLt
  have hj1 : (j 1).val < 784 := (j 1).isLt
  refine (block_noisy (iblk m c 0 t) (iblk m c 1 t) (iblk m c 2 t) j).trans ?_
  have hx : iblk m c 0 t j = m ((c : Thread nD τ).loc main_arg0) (((cfg0.win 3).blk t).view.emb j) := by
    show V m c main_arg0 (((cfg0.win 0).blk t).view.emb j) = _
    rw [V_main_arg0]
    have h0 : ((cfg0.win 0).blk t).view.emb j = ((cfg0.win 3).blk t).view.emb j := by
      funext a; apply Fin.ext
      match a with
      | ⟨0, _⟩ => show win0_0.index t (0 : Fin 2) * 4096 + 1 * (j 0).val = win0_3.index t (0 : Fin 2) * 4096 + 1 * (j 0).val; omega
      | ⟨1, _⟩ => show win0_0.index t (1 : Fin 2) * 784 + 1 * (j 1).val = win0_3.index t (1 : Fin 2) * 784 + 1 * (j 1).val; omega
    rw [h0]
  have hu : iblk m c 1 t (rowEntry j) = m ((c : Thread nD τ).loc main_arg1)
      (ix1 (n := 784) ⟨((((cfg0.win 3).blk t).view.emb j) 1).val, idx2_lt1 _⟩) := by
    show V m c main_v0 (((cfg0.win 1).blk t).view.emb (rowEntry j)) = _
    rw [entry_u]
    refine congrArg _ (column_congr _ _ ?_)
    show win0_1.index t (1 : Fin 2) * 784 + 1 * (j 1).val = win0_3.index t (1 : Fin 2) * 784 + 1 * (j 1).val
    omega
  have hg : iblk m c 2 t (rowEntry j) = m ((c : Thread nD τ).loc main_arg2)
      (ix1 (n := 784) ⟨((((cfg0.win 3).blk t).view.emb j) 1).val, idx2_lt1 _⟩) := by
    show V m c main_v1 (((cfg0.win 2).blk t).view.emb (rowEntry j)) = _
    rw [entry_g]
    refine congrArg _ (column_congr _ _ ?_)
    show win0_2.index t (1 : Fin 2) * 784 + 1 * (j 1).val = win0_3.index t (1 : Fin 2) * 784 + 1 * (j 1).val
    omega
  rw [hx, hu, hg]
  rfl

/-! ## The blocks cover the array -/

/-- An index is in point `t`'s block iff each coordinate is in the block's range on its axis. -/
theorem mem_block (t : Fin cfg0.N) (i : S131072x784.Idx) :
    i ∈ ((cfg0.win 3).blk t).view.set ↔ ∀ a : Fin 2, win0_3.index t a * S4096x784.size a ≤ (i a).val
      ∧ (i a).val < win0_3.index t a * S4096x784.size a + S4096x784.size a := by
  show i ∈ ((View.whole main_v2).slice (win0_3.rect t)).set ↔ _
  rw [View.set_slice_whole, Rect.mem_set_unit]
  exact Iff.rfl

/-- Index `(r, c)` lies in the block of point `r / 4096`, which writes back. -/
theorem covered (i : S131072x784.Idx) :
    ∃ t : Fin cfg0.N, (cfg0.win 3).flush t = true ∧ i ∈ ((cfg0.win 3).blk t).view.set := by
  have hi0 : (i 0).val < 131072 := (i 0).isLt
  have hi1 : (i 1).val < 784 := (i 1).isLt
  obtain ⟨t, ht⟩ := point_of_rows ⟨(i 0).val / 4096, by omega⟩
  have q0 : win0_3.index t (0 : Fin 2) = (i 0).val / 4096 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 784 ≤ (i 1).val ∧ (i 1).val < win0_3.index t (1 : Fin 2) * 784 + 784; omega

/-! ## The result array, and the run -/

/-- After the run the result array is the specification of the three arguments. -/
theorem result_noisy (c : Dev nD) :
    (dats m 0 c).arrAt 3 cfg0.N = Cert.NoisyRows.noisy (m ((c : Thread nD τ).loc main_arg0))
      (m ((c : Thread nD τ).loc main_arg1)) (m ((c : Thread nD τ).loc main_arg2)) :=
  (dats m 0 c).arrAt_eq_of_cover 3 _ (fun t _ => flushed_noisy m c t) covered

/-- Every weakly fair execution of the kernel's program ends with the result at the specification of the arguments,
    and the arguments unchanged. -/
theorem run : θ_run defs (onTc (τ := τ) (main (F := F))) ⟨m, fun _ => 0, ρ⟩ fun r => ∀ c : Dev nD,
      r.2.mem ((c : Thread nD τ).loc main_v2) = Cert.NoisyRows.noisy (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_noisy m c), (h c).2⟩) (run_blocks m ρ)

end Cert.KernelIdeal.WholeValue

end
-- ==== Proof.lean ====
/-
  The kernel adds one noise vector to every row of `x : [131072, 784]`: for column `c` the noise is `0.5 · g c` where
  `u c ≤ 0.2` and zero elsewhere (the three numbers as the binary words both programs spell). The kernel forms the noise
  on one row of 784 columns inside each of its 32 grid points and stretches it over the point's 4096 rows; the reference
  forms the same vector once and stretches it over all 131072 rows. Entry `(r, c)` of either result is
  `x (r, c) + noise (u c) (g c)`: the same operations on the same three numbers, in the same order. No sum is regrouped
  and no constant is re-read, so no law of the extended reals is used, and the inputs' finiteness is never opened.

  Proof/NoisyRows.lean states that function once. Proof/RefNoisy.lean reads the reference's result, one operation at a
  time, as that function. Proof/KernelBlock.lean reads the block one grid point leaves as that function of the point's
  loaded blocks; Proof/KernelWhole.lean reads the host's two re-shapes `[784] → [1, 784]`, shows that what point `t` writes
  back is block `t` of the function of the whole arguments, and that the 32 blocks cover the array. Below, the two runs are
  put side by side on memories that agree on the arguments.

  The three frames are the programs' own runs with the values forgotten; the idealization changed nothing in the
  kernel, so there is nothing to preserve.
-/
import proofs.«151766_j70102456206131_2_alg».proof.Defs
import proofs.«151766_j70102456206131_2_alg».proof.Proof.Gen.Kernel
import proofs.«151766_j70102456206131_2_alg».proof.Proof.Gen.Kernel.Skeleton
import proofs.«151766_j70102456206131_2_alg».proof.Proof.Gen.Kernel.Launch
import proofs.«151766_j70102456206131_2_alg».proof.Proof.Gen.Kernel.Points
import proofs.«151766_j70102456206131_2_alg».proof.Proof.Gen.Kernel.Frame
import proofs.«151766_j70102456206131_2_alg».proof.Proof.Gen.KernelIdeal
import proofs.«151766_j70102456206131_2_alg».proof.Proof.Gen.KernelIdeal.Skeleton
import proofs.«151766_j70102456206131_2_alg».proof.Proof.Gen.KernelIdeal.Launch
import proofs.«151766_j70102456206131_2_alg».proof.Proof.Gen.KernelIdeal.Points
import proofs.«151766_j70102456206131_2_alg».proof.Proof.Gen.KernelIdeal.Frame
import proofs.«151766_j70102456206131_2_alg».proof.Proof.Gen.ReferenceIdeal
import proofs.«151766_j70102456206131_2_alg».proof.Proof.Gen.Pre_finite_inputs
import proofs.«151766_j70102456206131_2_alg».proof.Proof.Gen.KernelIdeal.Value
import proofs.«151766_j70102456206131_2_alg».proof.Proof.Gen.ReferenceIdeal.Run
import proofs.«151766_j70102456206131_2_alg».proof.Proof.Gen.ReferenceIdeal.Read
import proofs.«151766_j70102456206131_2_alg».proof.Proof.NoisyRows
import proofs.«151766_j70102456206131_2_alg».proof.Proof.RefNoisy
import proofs.«151766_j70102456206131_2_alg».proof.Proof.KernelBlock
import proofs.«151766_j70102456206131_2_alg».proof.Proof.KernelWhole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing in this kernel. -/
theorem preserves : Cert.preserves_Kernel_KernelIdeal := trivial

/-- On memories that agree on `x`, `u` and `g`, both programs end with every row of `x` plus the one noise vector. -/
theorem algebraic : Cert.algebraic_KernelIdeal_ReferenceIdeal := by
  intro m ρ m' ρ' _ hagree
  refine ⟨_, Cert.KernelIdeal.WholeValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v7_eq _ _ _).trans (Cert.ReferenceIdeal.RefValue.reference_noisy _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
